-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg7 : FVec F S3x512x512 .f32) (main_arg8 : FVec F S3x512 .f32) (main_v33 : IVec S_ 1) : IVec S_ 1 :=
  let main_v34 : FVec F S3x512x512 .f32 := Host.absf main_arg7
  let main_cst_12 : FVec F S_ .f32 := constant S_ .f32 0x7F800000#32
  let main_v35 : FVec F S3x512x512 .f32 := broadcastInDim S3x512x512 ![] bcast_S_S3x512x512 main_cst_12
  let main_v36 : IVec S3x512x512 1 := cmpf .olt main_v34 main_v35
  let main_c_13 : IVec S_ 1 := constantI S_ 1 1#1
  let main_v37 : IVec S_ 1 := (fun x v => Host.reduce IntOp.andi x v reducesTo_S3x512x512_S_d0_1_2 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  main_v43

def fn_part1 {F : FTy → Type} [FloatOps F] (main_arg4 : FVec F S4x512 .f32) (main_arg5 : FVec F S4x512x512 .f32) (main_arg6 : FVec F S4x512 .f32) (main_arg7 : FVec F S3x512x512 .f32) (main_arg8 : FVec F S3x512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_v33

def fn {F : FTy → Type} [FloatOps F] (main_arg0 : FVec F S32768x512 .f32) (main_arg1 : FVec F S32768x512 .f32) (main_arg2 : FVec F S32768x512 .f32) (main_arg3 : FVec F S4x512x512 .f32) (main_arg4 : FVec F S4x512 .f32) (main_arg5 : FVec F S4x512x512 .f32) (main_arg6 : FVec F S4x512 .f32) (main_arg7 : FVec F S3x512x512 .f32) (main_arg8 : FVec F S3x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_arg7 main_arg8 main_v13 main_v16
-- ==== Kernel.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S512x4x512 : Shape := ⟨3, ![512, 4, 512]⟩
abbrev S512x2048 : Shape := ⟨2, ![512, 2048]⟩
abbrev S1024x2048 : Shape := ⟨2, ![1024, 2048]⟩
abbrev S2x512x512 : Shape := ⟨3, ![2, 512, 512]⟩
abbrev S512x2x512 : Shape := ⟨3, ![512, 2, 512]⟩
abbrev S512x1024 : Shape := ⟨2, ![512, 1024]⟩
abbrev S1x512x512 : Shape := ⟨3, ![1, 512, 512]⟩
abbrev S512x512 : Shape := ⟨2, ![512, 512]⟩
abbrev S1x2048 : Shape := ⟨2, ![1, 2048]⟩
abbrev S2x512 : Shape := ⟨2, ![2, 512]⟩
abbrev S1x1024 : Shape := ⟨2, ![1, 1024]⟩
abbrev S1x512 : Shape := ⟨2, ![1, 512]⟩
abbrev S512 : Shape := ⟨1, ![512]⟩

abbrev nBuf : Space → Nat
  | .hbm => 32
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S3x512x512, .f32⟩
  | .hbm, ⟨8, _⟩ => ⟨S3x512, .f32⟩
  | .hbm, ⟨9, _⟩ => ⟨S512x4x512, .f32⟩
  | .hbm, ⟨10, _⟩ => ⟨S512x2048, .f32⟩
  | .hbm, ⟨11, _⟩ => ⟨S512x4x512, .f32⟩
  | .hbm, ⟨12, _⟩ => ⟨S512x2048, .f32⟩
  | .hbm, ⟨13, _⟩ => ⟨S1024x2048, .f32⟩
  | .hbm, ⟨14, _⟩ => ⟨S1024x2048, .bf16⟩
  | .hbm, ⟨15, _⟩ => ⟨S2x512x512, .f32⟩
  | .hbm, ⟨16, _⟩ => ⟨S512x2x512, .f32⟩
  | .hbm, ⟨17, _⟩ => ⟨S512x1024, .f32⟩
  | .hbm, ⟨18, _⟩ => ⟨S512x1024, .bf16⟩
  | .hbm, ⟨19, _⟩ => ⟨S1x512x512, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S4x512, .f32⟩
  | .hbm, ⟨24, _⟩ => ⟨S1x2048, .f32⟩
  | .hbm, ⟨25, _⟩ => ⟨S2x512, .f32⟩
  | .hbm, ⟨26, _⟩ => ⟨S1x1024, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S32768x512, .f32⟩
  | .hbm, ⟨31, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S512x1024, .bf16⟩
  | .local _ .vmem, ⟨8, _⟩ => ⟨S512x512, .bf16⟩
  | .local _ .vmem, ⟨9, _⟩ => ⟨S1x2048, .f32⟩
  | .local _ .vmem, ⟨10, _⟩ => ⟨S1x1024, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S4x512x512_S512x4x512_2_0_1 : S4x512x512.Transposes [2, 0, 1] S512x4x512
  shapeCasts_S512x4x512_S512x2048 : S512x4x512.ShapeCasts S512x2048
  concatenates_S512x2048_S512x2048_S1024x2048_d0 : Shape.Concatenates [S512x2048, S512x2048] S1024x2048 0
  bitsLt_bf16_f32 : FTy.bits .bf16 < FTy.bits .f32
  slices_S3x512x512_S2x512x512_0_0_0 : S3x512x512.Slices ![0, 0, 0] S2x512x512
  transposes_S2x512x512_S512x2x512_2_0_1 : S2x512x512.Transposes [2, 0, 1] S512x2x512
  shapeCasts_S512x2x512_S512x1024 : S512x2x512.ShapeCasts S512x1024
  slices_S3x512x512_S1x512x512_2_0_0 : S3x512x512.Slices ![2, 0, 0] S1x512x512
  shapeCasts_S1x512x512_S512x512 : S1x512x512.ShapeCasts S512x512
  transposes_S512x512_S512x512_1_0 : S512x512.Transposes [1, 0] S512x512
  shapeCasts_S4x512_S1x2048 : S4x512.ShapeCasts S1x2048
  slices_S3x512_S2x512_0_0 : S3x512.Slices ![0, 0] S2x512
  shapeCasts_S2x512_S1x1024 : S2x512.ShapeCasts S1x1024
  slices_S3x512_S1x512_2_0 : S3x512.Slices ![2, 0] S1x512
  shapeCasts_S1x512_S512 : S1x512.ShapeCasts S512
  shapeCasts_S512_S1x512 : S512.ShapeCasts S1x512
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  slices_S512x1024_o0_0_S512x512 : S512x1024.Slices ![0, 0] S512x512
  slices_S512x1024_o0_512_S512x512 : S512x1024.Slices ![0, 512] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x2048_S512x2048_1_0_0_1_n_n_wf : DotDims.WF S512x1024 S1024x2048 S512x2048 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S32768x512.size a
  hwx0_10 : ∀ i : grid0.Coords, EltTy.bits .f32 = 32 ∨ (Rect.block (s := S32768x512) S512x512.size (cc0_transform_10 i) (hinb0_10 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S4x512x32768 : Shape := ⟨3, ![4, 512, 32768]⟩
abbrev S4x32768x512 : Shape := ⟨3, ![4, 32768, 512]⟩
abbrev S4x1x512 : Shape := ⟨3, ![4, 1, 512]⟩
abbrev S2x512x512 : Shape := ⟨3, ![2, 512, 512]⟩
abbrev S2x512x32768 : Shape := ⟨3, ![2, 512, 32768]⟩
abbrev S2x32768x512 : Shape := ⟨3, ![2, 32768, 512]⟩
abbrev S2x512 : Shape := ⟨2, ![2, 512]⟩
abbrev S2x1x512 : Shape := ⟨3, ![2, 1, 512]⟩
abbrev S1x32768x512 : Shape := ⟨3, ![1, 32768, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S3x512x512, .f32⟩
  | .hbm, ⟨8, _⟩ => ⟨S3x512, .f32⟩
  | .hbm, ⟨9, _⟩ => ⟨S4x512x32768, .f32⟩
  | .hbm, ⟨10, _⟩ => ⟨S4x32768x512, .f32⟩
  | .hbm, ⟨11, _⟩ => ⟨S4x1x512, .f32⟩
  | .hbm, ⟨12, _⟩ => ⟨S4x32768x512, .f32⟩
  | .hbm, ⟨13, _⟩ => ⟨S4x32768x512, .f32⟩
  | .hbm, ⟨14, _⟩ => ⟨S4x512x32768, .f32⟩
  | .hbm, ⟨15, _⟩ => ⟨S4x32768x512, .f32⟩
  | .hbm, ⟨16, _⟩ => ⟨S4x1x512, .f32⟩
  | .hbm, ⟨17, _⟩ => ⟨S4x32768x512, .f32⟩
  | .hbm, ⟨18, _⟩ => ⟨S4x32768x512, .f32⟩
  | .hbm, ⟨19, _⟩ => ⟨S2x512x512, .f32⟩
  | .hbm, ⟨20, _⟩ => ⟨S2x512x32768, .f32⟩
  | .hbm, ⟨21, _⟩ => ⟨S2x32768x512, .f32⟩
  | .hbm, ⟨22, _⟩ => ⟨S2x512, .f32⟩
  | .hbm, ⟨23, _⟩ => ⟨S2x1x512, .f32⟩
  | .hbm, ⟨24, _⟩ => ⟨S2x32768x512, .f32⟩
  | .hbm, ⟨25, _⟩ => ⟨S2x32768x512, .f32⟩
  | .hbm, ⟨26, _⟩ => ⟨S1x32768x512, .f32⟩
  | .hbm, ⟨27, _⟩ => ⟨S32768x512, .f32⟩
  | .hbm, ⟨28, _⟩ => ⟨S1x32768x512, .f32⟩
  | .hbm, ⟨29, _⟩ => ⟨S32768x512, .f32⟩
  | .hbm, ⟨30, _⟩ => ⟨S32768x512, .f32⟩
  | .hbm, ⟨31, _⟩ => ⟨S1x32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S1x32768x512, .f32⟩
  | .hbm, ⟨43, _⟩ => ⟨S32768x512, .f32⟩
  | .hbm, ⟨44, _⟩ => ⟨S1x32768x512, .f32⟩
  | .hbm, ⟨45, _⟩ => ⟨S32768x512, .f32⟩
  | .hbm, ⟨46, _⟩ => ⟨S32768x512, .f32⟩
  | .hbm, ⟨47, _⟩ => ⟨S1x32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S1x32768x512, .f32⟩
  | .hbm, ⟨59, _⟩ => ⟨S32768x512, .f32⟩
  | .hbm, ⟨60, _⟩ => ⟨S1x32768x512, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S1x32768x512, .f32⟩
  | .hbm, ⟨68, _⟩ => ⟨S32768x512, .f32⟩
  | .hbm, ⟨69, _⟩ => ⟨S1x32768x512, .f32⟩
  | .hbm, ⟨70, _⟩ => ⟨S32768x512, .f32⟩
  | .hbm, ⟨71, _⟩ => ⟨S32768x512, .f32⟩
  | .hbm, ⟨72, _⟩ => ⟨S1x512x512, .f32⟩
  | .hbm, ⟨73, _⟩ => ⟨S512x512, .f32⟩
  | .hbm, ⟨74, _⟩ => ⟨S512x512, .f32⟩
  | .hbm, ⟨75, _⟩ => ⟨S32768x512, .f32⟩
  | .hbm, ⟨76, _⟩ => ⟨S32768x512, .f32⟩
  | .hbm, ⟨77, _⟩ => ⟨S1x512, .f32⟩
  | .hbm, ⟨78, _⟩ => ⟨S512, .f32⟩
  | .hbm, ⟨79, _⟩ => ⟨S1x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S_, .f32⟩
  | .hbm, ⟨85, _⟩ => ⟨S32768x512, .f32⟩
  | .hbm, ⟨86, _⟩ => ⟨S32768x512, .f32⟩
  | .hbm, ⟨87, _⟩ => ⟨S_, .f32⟩
  | .hbm, ⟨88, _⟩ => ⟨S32768x512, .f32⟩
  | .hbm, ⟨89, _⟩ => ⟨S32768x512, .f32⟩
  | .hbm, ⟨90, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_3 : Ref sig .tc := ⟨.hbm, 84, rfl⟩
abbrev main_v71 : Ref sig .tc := ⟨.hbm, 85, rfl⟩
abbrev main_v72 : Ref sig .tc := ⟨.hbm, 86, rfl⟩
abbrev main_cst_4 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]

class Facts₀ : Prop where
  transposes_S4x512x32768_S4x32768x512_0_2_1 : S4x512x32768.Transposes [0, 2, 1] S4x32768x512
  bcast_S4x512_S4x1x512_0_2 : S4x512.BroadcastsInDim S4x1x512 (![0, 2] : Fin 2 → Fin S4x1x512.rank)
  bcast_S4x1x512_S4x32768x512_0_1_2 : S4x1x512.BroadcastsInDim S4x32768x512 (![0, 1, 2] : Fin 3 → Fin S4x32768x512.rank)
  slices_S3x512x512_S2x512x512_0_0_0 : S3x512x512.Slices ![0, 0, 0] S2x512x512
  transposes_S2x512x32768_S2x32768x512_0_2_1 : S2x512x32768.Transposes [0, 2, 1] S2x32768x512
  slices_S3x512_S2x512_0_0 : S3x512.Slices ![0, 0] S2x512
  bcast_S2x512_S2x1x512_0_2 : S2x512.BroadcastsInDim S2x1x512 (![0, 2] : Fin 2 → Fin S2x1x512.rank)
  bcast_S2x1x512_S2x32768x512_0_1_2 : S2x1x512.BroadcastsInDim S2x32768x512 (![0, 1, 2] : Fin 3 → Fin S2x32768x512.rank)
  slices_S4x32768x512_S1x32768x512_0_0_0 : S4x32768x512.Slices ![0, 0, 0] S1x32768x512
  shapeCasts_S1x32768x512_S32768x512 : S1x32768x512.ShapeCasts S32768x512
  slices_S2x32768x512_S1x32768x512_0_0_0 : S2x32768x512.Slices ![0, 0, 0] S1x32768x512
  bcast_S_S32768x512 : S_.BroadcastsInDim S32768x512 (![] : Fin 0 → Fin S32768x512.rank)
  slices_S4x32768x512_S1x32768x512_1_0_0 : S4x32768x512.Slices ![1, 0, 0] S1x32768x512
  slices_S2x32768x512_S1x32768x512_1_0_0 : S2x32768x512.Slices ![1, 0, 0] S1x32768x512
  slices_S4x32768x512_S1x32768x512_3_0_0 : S4x32768x512.Slices ![3, 0, 0] S1x32768x512
  slices_S4x32768x512_S1x32768x512_2_0_0 : S4x32768x512.Slices ![2, 0, 0] S1x32768x512
  slices_S3x512x512_S1x512x512_2_0_0 : S3x512x512.Slices ![2, 0, 0] S1x512x512
  shapeCasts_S1x512x512_S512x512 : S1x512x512.ShapeCasts S512x512
  transposes_S512x512_S512x512_1_0 : S512x512.Transposes [1, 0] S512x512
  slices_S3x512_S1x512_2_0 : S3x512.Slices ![2, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S4x512x512_S32768x512_S4x512x32768_2_1_01_0_n_n_wf : DotDims.WF S4x512x512 S32768x512 S4x512x32768 [2] [1] [0, 1] [0] [] []
  dot_S2x512x512_S32768x512_S2x512x32768_2_1_01_0_n_n_wf : DotDims.WF S2x512x512 S32768x512 S2x512x32768 [2] [1] [0, 1] [0] [] []
  dot_S32768x512_S512x512_S32768x512_1_0_0_1_n_n_wf : DotDims.WF S32768x512 S512x512 S32768x512 [1] [0] [0] [1] [] []

variable [Facts₀]

def dot_S4x512x512_S32768x512_S4x512x32768_2_1_01_0_n_n : DotDims S4x512x512 S32768x512 S4x512x32768 where
  lhsContracting := [2]
  rhsContracting := [1]
  lhsNonContracting := [0, 1]
  rhsNonContracting := [0]
  lhsBatch := []
  rhsBatch := []
  wf := dot_S4x512x512_S32768x512_S4x512x32768_2_1_01_0_n_n_wf
def dot_S2x512x512_S32768x512_S2x512x32768_2_1_01_0_n_n : DotDims S2x512x512 S32768x512 S2x512x32768 where
  lhsContracting := [2]
  rhsContracting := [1]
  lhsNonContracting := [0, 1]
  rhsNonContracting := [0]
  lhsBatch := []
  rhsBatch := []
  wf := dot_S2x512x512_S32768x512_S2x512x32768_2_1_01_0_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Cell.lean ====
/-
  The cell, as mathematics. Inputs: activations x, h, c of shape [B, E] (B = 32768 rows, E = 512 features), weights
  Wx, Wh of shape [4, E, E] with biases bx, bh of shape [4, E] (gates in the order input, forget, output, memory), and
  peephole weights Wc of shape [3, E, E] with biases bc of shape [3, E] (input, forget, output). A gate's projection of a
  row is  proj W u k b f = Σ_e W[k,f,e] · u[b,e].  With σ the logistic function, for row b and feature f:
      i = σ((proj Wx x 0 + bx₀) + (proj Wh h 0 + bh₀) + (proj Wc c 0 + bc₀))
      f = σ((proj Wx x 1 + bx₁) + (proj Wh h 1 + bh₁) + (proj Wc c 1 + bc₁))
      g = tanh((proj Wx x 3 + bx₃) + (proj Wh h 3 + bh₃))
      c' = f · c + i · g
      o = σ(((proj Wx x 2 + bx₂) + (proj Wh h 2 + bh₂)) + Σ_e c'[b,e] · Wc[2,f,e] + bc₂)
      h' = o · c'
  This file states c' and h' (`nextC`, `nextH`) and, beside them, the same cell in the arrangement in which a tile of
  512 rows computes it from re-laid operands (`cellC`, `cellH`): the x- and h-projections of all four gates as ONE
  product over a contraction axis of length 2E with the two biases pre-added, the two old-cell peepholes as one product.
  The two arrangements agree on the extended reals by commutativity and associativity of + and · alone
  (`cellC_eq`, `cellH_eq`): a sum over 2E terms is split in two, (A + B) + (a + b) = (A + a) + (B + b), and the
  factors of each product are swapped. No finiteness is needed.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- Activations [32768, 512]; gate weights [K, 512, 512]; gate biases [K, 512]. -/
abbrev Act := (⟨2, ![32768, 512]⟩ : Shape).Idx → EReal
abbrev Wt (K : Nat) := (⟨3, ![K, 512, 512]⟩ : Shape).Idx → EReal
abbrev Bs (K : Nat) := (⟨2, ![K, 512]⟩ : Shape).Idx → EReal

section Spec
variable (x h c : Act) (Wx : Wt 4) (bx : Bs 4) (Wh : Wt 4) (bh : Bs 4) (Wc : Wt 3) (bc : Bs 3)

/-- Gate k's projection of row b of u onto feature f: Σ_e W[k,f,e] · u[b,e]. -/
def proj {K : Nat} (W : Wt K) (u : Act) (k : Fin K) (b : Fin 32768) (f : Fin 512) : EReal :=
  ∑ e : Fin 512, W (ix3 k f e) * u (ix2 b e)

/-- The x- and h-parts of gate k's pre-activation, each with its own bias. -/
def gxh (k : Fin 4) (b : Fin 32768) (f : Fin 512) : EReal :=
  (proj Wx x k b f + bx (ix2 k f)) + (proj Wh h k b f + bh (ix2 k f))

/-- The old cell's peephole part of gate k (k = 0, 1), with its bias. -/
def gc (k : Fin 3) (b : Fin 32768) (f : Fin 512) : EReal := proj Wc c k b f + bc (ix2 k f)

/-- The new cell state c' = σ(forget) · c + σ(input) · tanh(memory). -/
def nextC (b : Fin 32768) (f : Fin 512) : EReal :=
  Ideal.logistic (gxh x h Wx bx Wh bh 1 b f + gc c Wc bc 1 b f) * c (ix2 b f)
    + Ideal.logistic (gxh x h Wx bx Wh bh 0 b f + gc c Wc bc 0 b f) * Ideal.tanh (gxh x h Wx bx Wh bh 3 b f)

/-- The output gate's pre-activation: it peeps at the NEW cell state. -/
def preO (b : Fin 32768) (f : Fin 512) : EReal :=
  (gxh x h Wx bx Wh bh 2 b f + ∑ e : Fin 512, nextC x h c Wx bx Wh bh Wc bc b e * Wc (ix3 2 f e)) + bc (ix2 2 f)

/-- The new hidden state h' = σ(output) · c'. -/
def nextH (b : Fin 32768) (f : Fin 512) : EReal :=
  Ideal.logistic (preO x h c Wx bx Wh bh Wc bc b f) * nextC x h c Wx bx Wh bh Wc bc b f

/-- The two results as whole arrays. -/
def arrC : Act := fun i => nextC x h c Wx bx Wh bh Wc bc (i 0) (i 1)
def arrH : Act := fun i => nextH x h c Wx bx Wh bh Wc bc (i 0) (i 1)

end Spec

/-! ## The same cell over a tile's re-laid operands -/

/-- Column k·512 + q of a matrix whose columns are four (two) gates side by side. -/
def col4 (k : Fin 4) (q : Fin 512) : Fin 2048 := ⟨k.val * 512 + q.val, by have := k.isLt; have := q.isLt; omega⟩
def col2 (k : Fin 2) (q : Fin 512) : Fin 1024 := ⟨k.val * 512 + q.val, by have := k.isLt; have := q.isLt; omega⟩
/-- Row e of the upper half, and row 512 + e of the lower half, of a matrix of two stacked [512, ·] blocks. -/
def top (e : Fin 512) : Fin 1024 := ⟨e.val, by have := e.isLt; omega⟩
def bot (e : Fin 512) : Fin 1024 := ⟨512 + e.val, by have := e.isLt; omega⟩

section Tile
variable (P0 P1 P2 : (⟨2, ![512, 512]⟩ : Shape).Idx → EReal) (P3 : (⟨2, ![1024, 2048]⟩ : Shape).Idx → EReal)
  (P4 : (⟨2, ![512, 1024]⟩ : Shape).Idx → EReal) (P5 : (⟨2, ![512, 512]⟩ : Shape).Idx → EReal)
  (P6 : (⟨2, ![1, 2048]⟩ : Shape).Idx → EReal) (P7 : (⟨2, ![1, 1024]⟩ : Shape).Idx → EReal)
  (P8 : (⟨2, ![1, 512]⟩ : Shape).Idx → EReal)

/-- Gate k of the fused x/h product: row p of [P0 | P1] against column k·512+q of P3, plus the pre-added bias row P6. -/
def fused (k : Fin 4) (p q : Fin 512) : EReal :=
  (∑ e : Fin 512, P0 (ix2 p e) * P3 (ix2 (top e) (col4 k q)) + ∑ e : Fin 512, P1 (ix2 p e) * P3 (ix2 (bot e) (col4 k q)))
    + P6 (ix2 0 (col4 k q))

/-- Gate k of the old cell's peephole product, plus its bias row P7. -/
def peep (k : Fin 2) (p q : Fin 512) : EReal :=
  ∑ e : Fin 512, P2 (ix2 p e) * P4 (ix2 e (col2 k q)) + P7 (ix2 0 (col2 k q))

def cellC (p q : Fin 512) : EReal :=
  Ideal.logistic (fused P0 P1 P3 P6 1 p q + peep P2 P4 P7 1 p q) * P2 (ix2 p q)
    + Ideal.logistic (fused P0 P1 P3 P6 0 p q + peep P2 P4 P7 0 p q) * Ideal.tanh (fused P0 P1 P3 P6 3 p q)

def cellH (p q : Fin 512) : EReal :=
  Ideal.logistic ((fused P0 P1 P3 P6 2 p q + ∑ e : Fin 512, cellC P0 P1 P2 P3 P4 P6 P7 p e * P5 (ix2 e q)) + P8 (ix2 0 q))
    * cellC P0 P1 P2 P3 P4 P6 P7 p q

end Tile

/-! ## The two arrangements agree -/

section Agree
variable (x h c : Act) (Wx : Wt 4) (bx : Bs 4) (Wh : Wt 4) (bh : Bs 4) (Wc : Wt 3) (bc : Bs 3)
variable (P0 P1 P2 : (⟨2, ![512, 512]⟩ : Shape).Idx → EReal) (P3 : (⟨2, ![1024, 2048]⟩ : Shape).Idx → EReal)
  (P4 : (⟨2, ![512, 1024]⟩ : Shape).Idx → EReal) (P5 : (⟨2, ![512, 512]⟩ : Shape).Idx → EReal)
  (P6 : (⟨2, ![1, 2048]⟩ : Shape).Idx → EReal) (P7 : (⟨2, ![1, 1024]⟩ : Shape).Idx → EReal)
  (P8 : (⟨2, ![1, 512]⟩ : Shape).Idx → EReal)

/-- What a tile's operands hold, for the tile row p that is row b of the arrays: the three activation tiles are rows of
    x, h, c; P3 stacks the transposed x-weights over the transposed h-weights, gates side by side; P4 and P5 are the
    transposed peephole weights; P6 is bx + bh, P7 and P8 are bc, each laid out as one row. -/
structure Holds (b : Fin 32768) (p : Fin 512) : Prop where
  h0 : ∀ e, P0 (ix2 p e) = x (ix2 b e)
  h1 : ∀ e, P1 (ix2 p e) = h (ix2 b e)
  h2 : ∀ e, P2 (ix2 p e) = c (ix2 b e)
  h3t : ∀ k q e, P3 (ix2 (top e) (col4 k q)) = Wx (ix3 k q e)
  h3b : ∀ k q e, P3 (ix2 (bot e) (col4 k q)) = Wh (ix3 k q e)
  h40 : ∀ q e, P4 (ix2 e (col2 0 q)) = Wc (ix3 0 q e)
  h41 : ∀ q e, P4 (ix2 e (col2 1 q)) = Wc (ix3 1 q e)
  h5 : ∀ q e, P5 (ix2 e q) = Wc (ix3 2 q e)
  h6 : ∀ k q, P6 (ix2 0 (col4 k q)) = bx (ix2 k q) + bh (ix2 k q)
  h70 : ∀ q, P7 (ix2 0 (col2 0 q)) = bc (ix2 0 q)
  h71 : ∀ q, P7 (ix2 0 (col2 1 q)) = bc (ix2 1 q)
  h8 : ∀ q, P8 (ix2 0 q) = bc (ix2 2 q)

variable {x h c Wx bx Wh bh Wc bc P0 P1 P2 P3 P4 P5 P6 P7 P8}

/-- The factors of every term of a sum may be swapped. -/
theorem sum_mul_comm (u w : Fin 512 → EReal) : ∑ e : Fin 512, u e * w e = ∑ e : Fin 512, w e * u e :=
  Finset.sum_congr rfl fun _ _ => mul_comm _ _

theorem fused_eq {b : Fin 32768} {p : Fin 512} (H : Holds x h c Wx bx Wh bh Wc bc P0 P1 P2 P3 P4 P5 P6 P7 P8 b p)
    (k : Fin 4) (q : Fin 512) : fused P0 P1 P3 P6 k p q = gxh x h Wx bx Wh bh k b q := by
  unfold fused gxh proj
  simp only [H.h0, H.h1, H.h3t, H.h3b, H.h6]
  rw [sum_mul_comm (fun e => x (ix2 b e)), sum_mul_comm (fun e => h (ix2 b e))]
  exact add_add_add_comm _ _ _ _

theorem peep0_eq {b : Fin 32768} {p : Fin 512} (H : Holds x h c Wx bx Wh bh Wc bc P0 P1 P2 P3 P4 P5 P6 P7 P8 b p)
    (q : Fin 512) : peep P2 P4 P7 0 p q = gc c Wc bc 0 b q := by
  unfold peep gc proj
  simp only [H.h2, H.h40, H.h70]
  rw [sum_mul_comm (fun e => c (ix2 b e))]

theorem peep1_eq {b : Fin 32768} {p : Fin 512} (H : Holds x h c Wx bx Wh bh Wc bc P0 P1 P2 P3 P4 P5 P6 P7 P8 b p)
    (q : Fin 512) : peep P2 P4 P7 1 p q = gc c Wc bc 1 b q := by
  unfold peep gc proj
  simp only [H.h2, H.h41, H.h71]
  rw [sum_mul_comm (fun e => c (ix2 b e))]

/-- A tile's new cell state is the cell's. -/
theorem cellC_eq {b : Fin 32768} {p : Fin 512} (H : Holds x h c Wx bx Wh bh Wc bc P0 P1 P2 P3 P4 P5 P6 P7 P8 b p)
    (q : Fin 512) : cellC P0 P1 P2 P3 P4 P6 P7 p q = nextC x h c Wx bx Wh bh Wc bc b q := by
  unfold cellC nextC
  rw [fused_eq H, fused_eq H, fused_eq H, peep0_eq H, peep1_eq H, H.h2]

/-- A tile's new hidden state is the cell's. -/
theorem cellH_eq {b : Fin 32768} {p : Fin 512} (H : Holds x h c Wx bx Wh bh Wc bc P0 P1 P2 P3 P4 P5 P6 P7 P8 b p)
    (q : Fin 512) : cellH P0 P1 P2 P3 P4 P5 P6 P7 P8 p q = nextH x h c Wx bx Wh bh Wc bc b q := by
  unfold cellH nextH preO
  rw [fused_eq H, cellC_eq H]
  simp only [cellC_eq H, H.h5, H.h8]

end Agree

end Cert.Cell

end
-- ==== Proof.RefCell.lean ====
/-
  The reference computes the cell. Its program is read one operation at a time: each gate's projection is a
  contraction  Σ_e W[k,f,e] · u[b,e]  laid out [k, f, b] and transposed to [k, b, f]; the bias is broadcast along the rows
  and added; a gate is cut out by a slice along the gate axis and a reshape that drops it; the logistic function is
  spelt  1 / (1 + exp(-z)), which is the logistic function on every extended real, the two infinities included.
  So the two results, read at (b, f), are `nextC` and `nextH` of the argument arrays.
-/
import proofs.«123642_j20761871908970_2_alg».proof.Proof.Gen.ReferenceIdeal.Read
import proofs.«123642_j20761871908970_2_alg».proof.Proof.Cell
import Idealize.ShloMosaic.PureOps.IdealRules

noncomputable section

namespace Cert.RefCell

open Cert.ReferenceIdeal Cert.ReferenceIdeal.Read Idealize.ShloMosaic Idealize.ShloMosaic.ValueIdx Cert.Cell

/-- The pattern of the literal 1.0 denotes the real number 1. -/
theorem one_f32 : (FloatOps.ofBits .f32 0x3F800000#32 : Ideal .f32) = 1 := IdealRules.sign_bit.ideal_onePat .f32

/-- The host's spelling of the logistic function, 1 / (1 + exp(-z)), is the logistic function. -/
theorem sigmoid_eq (z : Ideal .f32) :
    FloatOps.hostDivf (FloatOps.ofBits .f32 0x3F800000#32 : Ideal .f32)
      (FloatOps.addf (FloatOps.ofBits .f32 0x3F800000#32 : Ideal .f32) (FloatOps.hostUnary .exp (FloatOps.hostNegf z)))
      = Ideal.logistic z := by
  rw [one_f32]; rfl

variable (x0 x1 x2 : (⟨S32768x512, .f32⟩ : BufTy).Contents (Elt Ideal)) (x3 : (⟨S4x512x512, .f32⟩ : BufTy).Contents (Elt Ideal))
  (x4 : (⟨S4x512, .f32⟩ : BufTy).Contents (Elt Ideal)) (x5 : (⟨S4x512x512, .f32⟩ : BufTy).Contents (Elt Ideal))
  (x6 : (⟨S4x512, .f32⟩ : BufTy).Contents (Elt Ideal)) (x7 : (⟨S3x512x512, .f32⟩ : BufTy).Contents (Elt Ideal))
  (x8 : (⟨S3x512, .f32⟩ : BufTy).Contents (Elt Ideal))

/-! ## The three projection arrays, [gate, row, feature] -/

/-- The x-projections with their bias: entry (k, b, f) is  Σ_e Wx[k,f,e] · x[b,e] + bx[k,f]. -/
theorem gx_at (i : S4x32768x512.Idx) :
    val_main_v4 (F := Ideal) x0 x3 x4 i = proj x3 x0 (i 0) (i 1) (i 2) + x4 (ix2 (i 0) (i 2)) := by
  rw [val_main_v4_apply, val_main_v1_apply, val_main_v0_apply, val_main_v3_apply, val_main_v2_apply]
  have e1 : ∀ k, lidx_main_v0 (idx_main_v1 i) k = ix3 (i 0) (i 2) k := fun k => funext fun a => by
    match a with | ⟨0, _⟩ => rfl | ⟨1, _⟩ => rfl | ⟨2, _⟩ => rfl
  have e2 : ∀ k, ridx_main_v0 (idx_main_v1 i) k = ix2 (i 1) k := fun k => funext fun a => by
    match a with | ⟨0, _⟩ => rfl | ⟨1, _⟩ => rfl
  have e3 : idx_main_v2 (idx_main_v3 i) = ix2 (i 0) (i 2) := funext fun a => by
    match a with | ⟨0, _⟩ => rfl | ⟨1, _⟩ => rfl
  simp only [e1, e2, e3]
  rfl

/-- The h-projections with their bias. -/
theorem gh_at (i : S4x32768x512.Idx) :
    val_main_v9 (F := Ideal) x1 x5 x6 i = proj x5 x1 (i 0) (i 1) (i 2) + x6 (ix2 (i 0) (i 2)) := by
  rw [val_main_v9_apply, val_main_v6_apply, val_main_v5_apply, val_main_v8_apply, val_main_v7_apply]
  have e1 : ∀ k, lidx_main_v5 (idx_main_v6 i) k = ix3 (i 0) (i 2) k := fun k => funext fun a => by
    match a with | ⟨0, _⟩ => rfl | ⟨1, _⟩ => rfl | ⟨2, _⟩ => rfl
  have e2 : ∀ k, ridx_main_v5 (idx_main_v6 i) k = ix2 (i 1) k := fun k => funext fun a => by
    match a with | ⟨0, _⟩ => rfl | ⟨1, _⟩ => rfl
  have e3 : idx_main_v7 (idx_main_v8 i) = ix2 (i 0) (i 2) := funext fun a => by
    match a with | ⟨0, _⟩ => rfl | ⟨1, _⟩ => rfl
  simp only [e1, e2, e3]
  rfl

/-- The old cell's peephole projections (the first two gates of Wc) with their bias. -/
theorem gc_at (i : S2x32768x512.Idx) (k : Fin 3) (hk : k.val = (i 0).val) :
    val_main_v16 (F := Ideal) x2 x7 x8 i = proj x7 x2 k (i 1) (i 2) + x8 (ix2 k (i 2)) := by
  rw [val_main_v16_apply, val_main_v12_apply, val_main_v11_apply, val_main_v15_apply, val_main_v14_apply, val_main_v13_apply]
  simp only [val_main_v10_apply]
  have e1 : ∀ e, idx_main_v10 (lidx_main_v11 (idx_main_v12 i) e) = ix3 k (i 2) e := fun e => funext fun a => by
    match a with | ⟨0, _⟩ => exact Fin.ext hk.symm | ⟨1, _⟩ => rfl | ⟨2, _⟩ => rfl
  have e2 : ∀ e, ridx_main_v11 (idx_main_v12 i) e = ix2 (i 1) e := fun e => funext fun a => by
    match a with | ⟨0, _⟩ => rfl | ⟨1, _⟩ => rfl
  have e3 : idx_main_v13 (idx_main_v14 (idx_main_v15 i)) = ix2 k (i 2) := funext fun a => by
    match a with | ⟨0, _⟩ => exact Fin.ext hk.symm | ⟨1, _⟩ => rfl
  simp only [e1, e2, e3]
  rfl

/-! ## One gate of a projection array: a slice along the gate axis, then the reshape that drops it -/

theorem gx0_at (j : S32768x512.Idx) : val_main_v18 (F := Ideal) x0 x3 x4 j = val_main_v4 (F := Ideal) x0 x3 x4 (ix3 0 (j 0) (j 1)) := by
  rw [val_main_v18_apply, val_main_v17_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gh0_at (j : S32768x512.Idx) : val_main_v20 (F := Ideal) x1 x5 x6 j = val_main_v9 (F := Ideal) x1 x5 x6 (ix3 0 (j 0) (j 1)) := by
  rw [val_main_v20_apply, val_main_v19_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gc0_at (j : S32768x512.Idx) : val_main_v23 (F := Ideal) x2 x7 x8 j = val_main_v16 (F := Ideal) x2 x7 x8 (ix3 0 (j 0) (j 1)) := by
  rw [val_main_v23_apply, val_main_v22_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gx1_at (j : S32768x512.Idx) : val_main_v32 (F := Ideal) x0 x3 x4 j = val_main_v4 (F := Ideal) x0 x3 x4 (ix3 1 (j 0) (j 1)) := by
  rw [val_main_v32_apply, val_main_v31_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gh1_at (j : S32768x512.Idx) : val_main_v34 (F := Ideal) x1 x5 x6 j = val_main_v9 (F := Ideal) x1 x5 x6 (ix3 1 (j 0) (j 1)) := by
  rw [val_main_v34_apply, val_main_v33_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gc1_at (j : S32768x512.Idx) : val_main_v37 (F := Ideal) x2 x7 x8 j = val_main_v16 (F := Ideal) x2 x7 x8 (ix3 1 (j 0) (j 1)) := by
  rw [val_main_v37_apply, val_main_v36_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gx3_at (j : S32768x512.Idx) : val_main_v46 (F := Ideal) x0 x3 x4 j = val_main_v4 (F := Ideal) x0 x3 x4 (ix3 3 (j 0) (j 1)) := by
  rw [val_main_v46_apply, val_main_v45_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gh3_at (j : S32768x512.Idx) : val_main_v48 (F := Ideal) x1 x5 x6 j = val_main_v9 (F := Ideal) x1 x5 x6 (ix3 3 (j 0) (j 1)) := by
  rw [val_main_v48_apply, val_main_v47_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gx2_at (j : S32768x512.Idx) : val_main_v55 (F := Ideal) x0 x3 x4 j = val_main_v4 (F := Ideal) x0 x3 x4 (ix3 2 (j 0) (j 1)) := by
  rw [val_main_v55_apply, val_main_v54_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

theorem gh2_at (j : S32768x512.Idx) : val_main_v57 (F := Ideal) x1 x5 x6 j = val_main_v9 (F := Ideal) x1 x5 x6 (ix3 2 (j 0) (j 1)) := by
  rw [val_main_v57_apply, val_main_v56_apply]
  refine congrArg _ (funext fun a => Fin.ext ?_)
  have h0 : (j 0).val < 32768 := (j 0).isLt; have h1 : (j 1).val < 512 := (j 1).isLt
  match a with
  | ⟨0, _⟩ => rfl
  | ⟨1, _⟩ => show ((j 0).val * 512 + (j 1).val) / 512 % 32768 = (j 0).val; omega
  | ⟨2, _⟩ => show ((j 0).val * 512 + (j 1).val) % 512 = (j 1).val; omega

/-! ## The gates and the two results -/

/-- The x- and h-parts of gate k at (b, f), from the two projection arrays. -/
theorem gxh_at (i : S4x32768x512.Idx) :
    val_main_v4 (F := Ideal) x0 x3 x4 i + val_main_v9 (F := Ideal) x1 x5 x6 i
      = gxh x0 x1 x3 x4 x5 x6 (i 0) (i 1) (i 2) := by
  rw [gx_at, gh_at]; rfl

/-- The reference's second result is the new cell state. -/
theorem ref_nextC (j : S32768x512.Idx) :
    val_main_v53 (F := Ideal) x0 x1 x2 x3 x4 x5 x6 x7 x8 j = nextC x0 x1 x2 x3 x4 x5 x6 x7 x8 (j 0) (j 1) := by
  rw [val_main_v53_apply, val_main_v51_apply, val_main_v52_apply, val_main_v44_apply, val_main_v43_apply, val_main_cst_2_apply,
    val_main_v42_apply, val_main_v41_apply, val_main_cst_1_apply, val_main_v40_apply, val_main_v39_apply, val_main_v38_apply,
    val_main_v35_apply, val_main_v30_apply, val_main_v29_apply, val_main_cst_0_apply, val_main_v28_apply, val_main_v27_apply,
    val_main_cst_apply, val_main_v26_apply, val_main_v25_apply, val_main_v24_apply, val_main_v21_apply, val_main_v50_apply,
    val_main_v49_apply, sigmoid_eq, sigmoid_eq, gx0_at, gh0_at, gc0_at, gx1_at, gh1_at, gc1_at, gx3_at, gh3_at]
  show Ideal.logistic ((_ + _) + _) * _ + Ideal.logistic ((_ + _) + _) * Ideal.tanh (_ + _) = _
  rw [gxh_at, gxh_at, gxh_at, gc_at x2 x7 x8 (ix3 0 (j 0) (j 1)) 0 rfl, gc_at x2 x7 x8 (ix3 1 (j 0) (j 1)) 1 rfl]
  have ej : x2 j = x2 (ix2 (j 0) (j 1)) := congrArg x2 (eq_ix2 j)
  rw [ej]
  rfl

/-- The reference's first result is the new hidden state. -/
theorem ref_nextH (j : S32768x512.Idx) :
    val_main_v75 (F := Ideal) x0 x1 x2 x3 x4 x5 x6 x7 x8 j = nextH x0 x1 x2 x3 x4 x5 x6 x7 x8 (j 0) (j 1) := by
  rw [val_main_v75_apply, val_main_v74_apply, val_main_v73_apply, val_main_cst_4_apply, val_main_v72_apply, val_main_v71_apply,
    val_main_cst_3_apply, val_main_v70_apply, val_main_v69_apply, val_main_v68_apply, val_main_v63_apply, val_main_v58_apply,
    val_main_v62_apply, val_main_v67_apply, val_main_v66_apply, val_main_v65_apply, val_main_v64_apply, sigmoid_eq,
    gx2_at, gh2_at, ref_nextC]
  simp only [ref_nextC, val_main_v61_apply, val_main_v60_apply, val_main_v59_apply]
  have e1 : ∀ e : Fin 512, idx_main_v59 (idx_main_v60 (idx_main_v61 (ridx_main_v62 j e))) = ix3 2 (j 1) e := fun e => funext fun a => Fin.ext (by
    have h0 : (j 1).val < 512 := (j 1).isLt; have h1 : e.val < 512 := e.isLt
    match a with
    | ⟨0, _⟩ => rfl
    | ⟨1, _⟩ => show ((j 1).val * 512 + e.val) / 512 % 512 = (j 1).val; omega
    | ⟨2, _⟩ => show ((j 1).val * 512 + e.val) % 512 = e.val; omega)
  have e2 : idx_main_v64 (idx_main_v65 (idx_main_v66 (idx_main_v67 j))) = ix2 2 (j 1) := funext fun a => Fin.ext (by
    have h0 : (j 1).val < 512 := (j 1).isLt
    match a with
    | ⟨0, _⟩ => rfl
    | ⟨1, _⟩ => show ((j 1).val) % 512 = (j 1).val; omega)
  simp only [e1, e2]
  show Ideal.logistic (((_ + _) + _) + _) * _ = _
  rw [gxh_at]
  rfl

end Cert.RefCell

end
-- ==== Proof.Tile.lean ====
/-
  One tile of 512 rows. The body's arithmetic, read at a position (p, q) of the tile over arbitrary operand blocks
  P0 … P8, is the cell in its tiled arrangement (Cell.lean): a product into a zero accumulator is the plain sum over the
  contraction axis; the left operand of the fused product is [P0 | P1] side by side, so its sum over 1024 terms is the sum
  over P0's 512 plus the sum over P1's 512; column k·512 + q of a four-gate-wide result is gate k at q, which is what each
  slice of width 512 picks; a bias row [1, n] is broadcast to every row of the tile.
-/
import proofs.«123642_j20761871908970_2_alg».proof.Proof.Gen.KernelIdeal.Value
import proofs.«123642_j20761871908970_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.Tile

open Cert.KernelIdeal Cert.KernelIdeal.Gen Idealize.ShloMosaic Idealize.ShloMosaic.ValueIdx Cert.Cell

/-! ## The three products, each into a zero accumulator -/

theorem mm_fused_row (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mm_fused_col (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl
/-- The fused x/h product [512, 1024] · [1024, 2048] at (p, n): the sum over the 1024 contraction positions. -/
theorem mm_fused (L : FVec Ideal S512x1024 .bf16) (R : FVec Ideal S1024x2048 .bf16) (j : S512x2048.Idx) :
    matmul dot_S512x1024_S1024x2048_S512x2048_1_0_0_1_n_n none L R (constant S512x2048 .f32 0x00000000#32) j = ∑ r : Fin 1024, L (ix2 (j 0) r) * R (ix2 r (j 1)) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx j ((contrEquiv1 dot_S512x1024_S1024x2048_S512x2048_1_0_0_1_n_n 1024 rfl rfl).symm k) = ix2 (j 0) k := funext fun a => Fin.ext (by
    match a with
    | ⟨0, _⟩ => exact mm_fused_row _ _
    | ⟨1, _⟩ => exact (dot_S512x1024_S1024x2048_S512x2048_1_0_0_1_n_n.lhsIdx_val_of_single rfl j _).trans hk)
  have er : dot_S512x1024_S1024x2048_S512x2048_1_0_0_1_n_n.rhsIdx j ((contrEquiv1 dot_S512x1024_S1024x2048_S512x2048_1_0_0_1_n_n 1024 rfl rfl).symm k) = ix2 k (j 1) := funext fun a => Fin.ext (by
    match a with
    | ⟨0, _⟩ => exact (dot_S512x1024_S1024x2048_S512x2048_1_0_0_1_n_n.rhsIdx_val_of_single rfl j _).trans hk
    | ⟨1, _⟩ => exact mm_fused_col _ _)
  exact congrArg₂ (· * ·) (congrArg L el) (congrArg R er)

theorem mm_peep_row (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mm_peep_col (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
/-- The old cell's peephole product [512, 512] · [512, 1024] at (p, n). -/
theorem mm_peep (L : FVec Ideal S512x512 .bf16) (R : FVec Ideal S512x1024 .bf16) (j : S512x1024.Idx) :
    matmul dot_S512x512_S512x1024_S512x1024_1_0_0_1_n_n none L R (constant S512x1024 .f32 0x00000000#32) j = ∑ r : Fin 512, L (ix2 (j 0) r) * R (ix2 r (j 1)) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx j ((contrEquiv1 dot_S512x512_S512x1024_S512x1024_1_0_0_1_n_n 512 rfl rfl).symm k) = ix2 (j 0) k := funext fun a => Fin.ext (by
    match a with
    | ⟨0, _⟩ => exact mm_peep_row _ _
    | ⟨1, _⟩ => exact (dot_S512x512_S512x1024_S512x1024_1_0_0_1_n_n.lhsIdx_val_of_single rfl j _).trans hk)
  have er : dot_S512x512_S512x1024_S512x1024_1_0_0_1_n_n.rhsIdx j ((contrEquiv1 dot_S512x512_S512x1024_S512x1024_1_0_0_1_n_n 512 rfl rfl).symm k) = ix2 k (j 1) := funext fun a => Fin.ext (by
    match a with
    | ⟨0, _⟩ => exact (dot_S512x512_S512x1024_S512x1024_1_0_0_1_n_n.rhsIdx_val_of_single rfl j _).trans hk
    | ⟨1, _⟩ => exact mm_peep_col _ _)
  exact congrArg₂ (· * ·) (congrArg L el) (congrArg R er)

theorem mm_out_row (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mm_out_col (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
/-- The output gate's peephole product [512, 512] · [512, 512] at (p, q). -/
theorem mm_out (L : FVec Ideal S512x512 .bf16) (R : FVec Ideal S512x512 .bf16) (j : S512x512.Idx) :
    matmul dot_S512x512_S512x512_S512x512_1_0_0_1_n_n none L R (constant S512x512 .f32 0x00000000#32) j = ∑ r : Fin 512, L (ix2 (j 0) r) * R (ix2 r (j 1)) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx j ((contrEquiv1 dot_S512x512_S512x512_S512x512_1_0_0_1_n_n 512 rfl rfl).symm k) = ix2 (j 0) k := funext fun a => Fin.ext (by
    match a with
    | ⟨0, _⟩ => exact mm_out_row _ _
    | ⟨1, _⟩ => exact (dot_S512x512_S512x512_S512x512_1_0_0_1_n_n.lhsIdx_val_of_single rfl j _).trans hk)
  have er : dot_S512x512_S512x512_S512x512_1_0_0_1_n_n.rhsIdx j ((contrEquiv1 dot_S512x512_S512x512_S512x512_1_0_0_1_n_n 512 rfl rfl).symm k) = ix2 k (j 1) := funext fun a => Fin.ext (by
    match a with
    | ⟨0, _⟩ => exact (dot_S512x512_S512x512_S512x512_1_0_0_1_n_n.rhsIdx_val_of_single rfl j _).trans hk
    | ⟨1, _⟩ => exact mm_out_col _ _)
  exact congrArg₂ (· * ·) (congrArg L el) (congrArg R er)

/-! ## Small reads -/

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- A sum over n = a + b positions is the sum over the first a plus the sum over the last b. -/
theorem sum_split {a b n : Nat} (hn : a + b = n) (f : Fin n → EReal) :
    ∑ r : Fin n, f r = ∑ e : Fin a, f (Fin.cast hn (Fin.castAdd b e)) + ∑ e : Fin b, f (Fin.cast hn (Fin.natAdd a e)) := by
  subst hn
  exact Fin.sum_univ_add f

/-- A sum over 1024 positions is the sum over the upper 512 plus the sum over the lower 512. -/
theorem sum_halves (f : Fin 1024 → EReal) : ∑ r : Fin 1024, f r = ∑ e : Fin 512, f (top e) + ∑ e : Fin 512, f (bot e) := by
  rw [sum_split (a := 512) (b := 512) (n := 1024) (by norm_num) f]
  rfl

variable (P0 P1 P2 : FVec Ideal S512x512 .f32) (P3 : FVec Ideal S1024x2048 .bf16) (P4 : FVec Ideal S512x1024 .bf16)
  (P5 : FVec Ideal S512x512 .bf16) (P6 : FVec Ideal S1x2048 .f32) (P7 : FVec Ideal S1x1024 .f32) (P8 : FVec Ideal S1x512 .f32)

/-- [P0 | P1] side by side, as the body builds it. -/
abbrev sideBySide : FVec Ideal S512x1024 .bf16 :=
  concatenate S512x1024 1 [⟨S512x512, truncf .bf16 P0 bitsLt_bf16_f32⟩, ⟨S512x512, truncf .bf16 P1 bitsLt_bf16_f32⟩] concatenates_S512x512_S512x512_S512x1024_d1

/-- Its left half is P0. -/
theorem side_left (p e : Fin 512) : sideBySide P0 P1 (ix2 p (top e)) = P0 (ix2 p e) := by
  refine (concatenate_pair_apply_left (1 : Fin S512x1024.rank) _ _ concatenates_S512x512_S512x512_S512x1024_d1 (ix2 p (top e)) rfl (ix2 p e) (fun b => ?_)).trans rfl
  match b with
  | ⟨0, _⟩ => rfl
  | ⟨1, _⟩ => rfl

/-- Its right half is P1. -/
theorem side_right (p e : Fin 512) : sideBySide P0 P1 (ix2 p (bot e)) = P1 (ix2 p e) := by
  refine (concatenate_pair_apply_right (1 : Fin S512x1024.rank) _ _ concatenates_S512x512_S512x512_S512x1024_d1 (ix2 p (bot e)) rfl rfl (ix2 p e) (fun b hb => ?_) ?_).trans rfl
  · match b with
    | ⟨0, _⟩ => rfl
    | ⟨1, _⟩ => exact absurd rfl hb
  · show e.val + 512 = 512 + e.val
    omega

/-! ## The payloads at a position of the tile -/

/-- The fused product plus the broadcast bias row, flattened. -/
theorem pay2_flat : k0_pay2 (F := Ideal) P0 P1 P3 P6
    = addf (matmul dot_S512x1024_S1024x2048_S512x2048_1_0_0_1_n_n none (sideBySide P0 P1) (shapeCast S1024x2048 P3 shapeCasts_S1024x2048_S1024x2048) (constant S512x2048 .f32 0x00000000#32))
        (broadcastTo S512x2048 (shapeCast S1x2048 P6 shapeCasts_S1x2048_S1x2048) broadcasts_S1x2048_S512x2048) := rfl

/-- Column k·512 + q of the fused pre-activations is gate k at q. -/
theorem pay2_at (k : Fin 4) (p q : Fin 512) : k0_pay2 (F := Ideal) P0 P1 P3 P6 (ix2 p (col4 k q)) = fused P0 P1 P3 P6 k p q := by
  rw [pay2_flat, addf_apply, mm_fused, shapeCast_self, shapeCast_self, broadcastTo_1b_ab_apply, sum_halves]
  simp only [side_left, side_right]
  rfl

/-- The old cell's peephole pre-activations, two gates wide. -/
abbrev peepVec : FVec Ideal S512x1024 .f32 :=
  addf (matmul dot_S512x512_S512x1024_S512x1024_1_0_0_1_n_n none (truncf .bf16 P2 bitsLt_bf16_f32) (shapeCast S512x1024 P4 shapeCasts_S512x1024_S512x1024) (constant S512x1024 .f32 0x00000000#32))
    (broadcastTo S512x1024 (shapeCast S1x1024 P7 shapeCasts_S1x1024_S1x1024) broadcasts_S1x1024_S512x1024)

theorem peepVec_at (k : Fin 2) (p q : Fin 512) : peepVec P2 P4 P7 (ix2 p (col2 k q)) = peep P2 P4 P7 k p q := by
  rw [peepVec, addf_apply, mm_peep, shapeCast_self, shapeCast_self, broadcastTo_1b_ab_apply]
  rfl

/-- The new cell state of the tile, flattened: six slices of width 512, two logistic gates, one tanh. -/
theorem pay3_flat : k0_pay3 (F := Ideal) P0 P1 P2 P3 P4 P6 P7
    = addf (mulf (logistic (addf (extractStridedSlice S512x512 ![0, 512] (k0_pay2 (F := Ideal) P0 P1 P3 P6) slices_S512x2048_o0_512_S512x512)
                              (extractStridedSlice S512x512 ![0, 512] (peepVec P2 P4 P7) slices_S512x1024_o0_512_S512x512))) P2)
           (mulf (logistic (addf (extractStridedSlice S512x512 ![0, 0] (k0_pay2 (F := Ideal) P0 P1 P3 P6) slices_S512x2048_o0_0_S512x512)
                              (extractStridedSlice S512x512 ![0, 0] (peepVec P2 P4 P7) slices_S512x1024_o0_0_S512x512)))
                 (tanh (extractStridedSlice S512x512 ![0, 1536] (k0_pay2 (F := Ideal) P0 P1 P3 P6) slices_S512x2048_o0_1536_S512x512))) := rfl

theorem pay3_at (p q : Fin 512) : k0_pay3 (F := Ideal) P0 P1 P2 P3 P4 P6 P7 (ix2 p q) = cellC P0 P1 P2 P3 P4 P6 P7 p q := by
  have s1 : extractStridedSlice S512x512 ![0, 512] (k0_pay2 (F := Ideal) P0 P1 P3 P6) slices_S512x2048_o0_512_S512x512 (ix2 p q) = fused P0 P1 P3 P6 1 p q :=
    (slice2_axis1_apply 512 _ _ p q (col4 1 q) (by show 1 * 512 + q.val = 512 + q.val; omega)).trans (pay2_at P0 P1 P3 P6 1 p q)
  have s0 : extractStridedSlice S512x512 ![0, 0] (k0_pay2 (F := Ideal) P0 P1 P3 P6) slices_S512x2048_o0_0_S512x512 (ix2 p q) = fused P0 P1 P3 P6 0 p q :=
    (slice2_axis1_apply 0 _ _ p q (col4 0 q) (by show 0 * 512 + q.val = 0 + q.val; omega)).trans (pay2_at P0 P1 P3 P6 0 p q)
  have s3 : extractStridedSlice S512x512 ![0, 1536] (k0_pay2 (F := Ideal) P0 P1 P3 P6) slices_S512x2048_o0_1536_S512x512 (ix2 p q) = fused P0 P1 P3 P6 3 p q :=
    (slice2_axis1_apply 1536 _ _ p q (col4 3 q) (by show 3 * 512 + q.val = 1536 + q.val; omega)).trans (pay2_at P0 P1 P3 P6 3 p q)
  have t1 : extractStridedSlice S512x512 ![0, 512] (peepVec P2 P4 P7) slices_S512x1024_o0_512_S512x512 (ix2 p q) = peep P2 P4 P7 1 p q :=
    (slice2_axis1_apply 512 _ _ p q (col2 1 q) (by show 1 * 512 + q.val = 512 + q.val; omega)).trans (peepVec_at P2 P4 P7 1 p q)
  have t0 : extractStridedSlice S512x512 ![0, 0] (peepVec P2 P4 P7) slices_S512x1024_o0_0_S512x512 (ix2 p q) = peep P2 P4 P7 0 p q :=
    (slice2_axis1_apply 0 _ _ p q (col2 0 q) (by show 0 * 512 + q.val = 0 + q.val; omega)).trans (peepVec_at P2 P4 P7 0 p q)
  rw [pay3_flat, addf_apply, mulf_apply, mulf_apply, logistic_at, logistic_at, tanh_at, addf_apply, addf_apply, s1, s0, s3, t1, t0]
  rfl

/-- The output gate's pre-activation without its bias, flattened. -/
theorem pay4_flat : k0_pay4 (F := Ideal) P0 P1 P2 P3 P4 P5 P6 P7
    = addf (extractStridedSlice S512x512 ![0, 1024] (k0_pay2 (F := Ideal) P0 P1 P3 P6) slices_S512x2048_o0_1024_S512x512)
        (matmul dot_S512x512_S512x512_S512x512_1_0_0_1_n_n none (truncf .bf16 (k0_pay3 (F := Ideal) P0 P1 P2 P3 P4 P6 P7) bitsLt_bf16_f32) (shapeCast S512x512 P5 shapeCasts_S512x512_S512x512) (constant S512x512 .f32 0x00000000#32)) := rfl

theorem pay4_at (p q : Fin 512) : k0_pay4 (F := Ideal) P0 P1 P2 P3 P4 P5 P6 P7 (ix2 p q)
    = fused P0 P1 P3 P6 2 p q + ∑ e : Fin 512, cellC P0 P1 P2 P3 P4 P6 P7 p e * P5 (ix2 e q) := by
  have s2 : extractStridedSlice S512x512 ![0, 1024] (k0_pay2 (F := Ideal) P0 P1 P3 P6) slices_S512x2048_o0_1024_S512x512 (ix2 p q) = fused P0 P1 P3 P6 2 p q :=
    (slice2_axis1_apply 1024 _ _ p q (col4 2 q) (by show 2 * 512 + q.val = 1024 + q.val; omega)).trans (pay2_at P0 P1 P3 P6 2 p q)
  rw [pay4_flat, addf_apply, s2, mm_out, shapeCast_self]
  refine congrArg (fused P0 P1 P3 P6 2 p q + ·) (Finset.sum_congr rfl fun e _ => ?_)
  show k0_pay3 (F := Ideal) P0 P1 P2 P3 P4 P6 P7 (ix2 p e) * P5 (ix2 e q) = _
  rw [pay3_at]

/-- The new hidden state of the tile: the block the pieces of the first output leave, at (p, q). -/
theorem hidden_at (p q : Fin 512) : Cert.KernelIdeal.Value.E9 (F := Ideal) P0 P1 P2 P3 P4 P5 P6 P7 P8 (ix2 p q) = cellH P0 P1 P2 P3 P4 P5 P6 P7 P8 p q := by
  have i0 : Cert.KernelIdeal.Value.ix9_0 (ix2 p q) = ix2 p q := funext fun a => by
    match a with | ⟨0, _⟩ => rfl | ⟨1, _⟩ => rfl
  have i1 : Cert.KernelIdeal.Value.ix9_1 (ix2 p q) = ix2 0 q := funext fun a => by
    match a with | ⟨0, _⟩ => rfl | ⟨1, _⟩ => rfl
  have i2 : Cert.KernelIdeal.Value.ix9_2 (ix2 p q) = ix2 p q := funext fun a => by
    match a with | ⟨0, _⟩ => rfl | ⟨1, _⟩ => rfl
  show FloatOps.mulf (FloatOps.logistic (FloatOps.addf ((k0_pay4 (F := Ideal) P0 P1 P2 P3 P4 P5 P6 P7) (Cert.KernelIdeal.Value.ix9_0 (ix2 p q)))
    (P8 (Cert.KernelIdeal.Value.ix9_1 (ix2 p q))))) ((k0_pay3 (F := Ideal) P0 P1 P2 P3 P4 P6 P7) (Cert.KernelIdeal.Value.ix9_2 (ix2 p q))) = _
  rw [i0, i1, i2, pay4_at, pay3_at]
  rfl

end Cert.Tile

end
-- ==== Proof.Relaid.lean ====
/-
  The operands the tiles are fed, as functions of the arguments. Before the tiles run, the weights are re-laid once:
  Wx and Wh, each [4, E, E] indexed (gate, out, in), are transposed to (in, gate, out), flattened to [E, 4E] and stacked
  into one [2E, 4E] matrix, so that entry (e, k·E + f) of the upper half is Wx[k, f, e] and entry (E + e, k·E + f) of
  the lower half is Wh[k, f, e]; the first two gates of Wc likewise become [E, 2E]; the third gate of Wc is transposed;
  bx + bh is flattened to one row of 4E, the first two rows of bc to one row of 2E, the third row of bc to one row of E.
  A reshape keeps row-major positions, which is all these readings use.
-/
import proofs.«123642_j20761871908970_2_alg».proof.Proof.Gen.KernelIdeal.Frame
import proofs.«123642_j20761871908970_2_alg».proof.Proof.Cell
import Idealize.ShloMosaic.Lib.ValueIdx
import Idealize.ShloMosaic.Lib.ValueLayout
import Idealize.ShloMosaic.Lib.Pipeline.Value
import Idealize.ShloMosaic.Lib.StableHlo.Run

noncomputable section

namespace Cert.Relaid

open Cert.KernelIdeal Cert.KernelIdeal.Gen Idealize.ShloMosaic Idealize.ShloMosaic.TcCoe Idealize.SL.Sem Idealize.ShloMosaic.StableHlo
open Idealize.ShloMosaic.ValueIdx Cert.Cell

/-! ## The re-laid operands as functions of the arguments -/

/-- One [4, E, E] weight array as [E, 4E]: (e, k·E + f) ↦ W[k, f, e]. -/
abbrev flat4 (W : FVec Ideal S4x512x512 .f32) : FVec Ideal S512x2048 .f32 :=
  shapeCast S512x2048 (transpose S512x4x512 [2, 0, 1] W transposes_S4x512x512_S512x4x512_2_0_1) shapeCasts_S512x4x512_S512x2048

theorem flat4_at (W : FVec Ideal S4x512x512 .f32) (e : Fin 512) (k : Fin 4) (q : Fin 512) :
    flat4 W (ix2 e (col4 k q)) = W (ix3 k q e) := by
  refine (shapeCast_apply _ shapeCasts_S512x4x512_S512x2048 (ix2 e (col4 k q)) (ix3 e k q) ?_).trans ?_
  · rw [Shape.rowMajor_val_three, Shape.rowMajor_val_two]
    have := e.isLt; have := k.isLt; have := q.isLt
    show (e.val * 4 + k.val) * 512 + q.val = e.val * 2048 + (k.val * 512 + q.val)
    omega
  · exact transpose_apply [2, 0, 1] W transposes_S4x512x512_S512x4x512_2_0_1 (ix3 e k q) (ix3 k q e) (fun b => match b with
      | ⟨0, _⟩ => rfl
      | ⟨1, _⟩ => rfl
      | ⟨2, _⟩ => rfl)

/-- The x-weights stacked over the h-weights: [2E, 4E]. -/
abbrev stacked (Wx Wh : FVec Ideal S4x512x512 .f32) : FVec Ideal S1024x2048 .bf16 :=
  truncf .bf16 (concatenate S1024x2048 0 [⟨S512x2048, flat4 Wx⟩, ⟨S512x2048, flat4 Wh⟩] concatenates_S512x2048_S512x2048_S1024x2048_d0) bitsLt_bf16_f32

theorem stacked_top (Wx Wh : FVec Ideal S4x512x512 .f32) (e : Fin 512) (k : Fin 4) (q : Fin 512) :
    stacked Wx Wh (ix2 (top e) (col4 k q)) = Wx (ix3 k q e) := by
  refine (concatenate_pair_apply_left (0 : Fin S1024x2048.rank) (flat4 Wx) (flat4 Wh) concatenates_S512x2048_S512x2048_S1024x2048_d0
    (ix2 (top e) (col4 k q)) rfl (ix2 e (col4 k q)) (fun b => ?_)).trans (flat4_at Wx e k q)
  match b with
  | ⟨0, _⟩ => rfl
  | ⟨1, _⟩ => rfl

theorem stacked_bot (Wx Wh : FVec Ideal S4x512x512 .f32) (e : Fin 512) (k : Fin 4) (q : Fin 512) :
    stacked Wx Wh (ix2 (bot e) (col4 k q)) = Wh (ix3 k q e) := by
  refine (concatenate_pair_apply_right (0 : Fin S1024x2048.rank) (flat4 Wx) (flat4 Wh) concatenates_S512x2048_S512x2048_S1024x2048_d0
    (ix2 (bot e) (col4 k q)) rfl rfl (ix2 e (col4 k q)) (fun b hb => ?_) ?_).trans (flat4_at Wh e k q)
  · match b with
    | ⟨0, _⟩ => exact absurd rfl hb
    | ⟨1, _⟩ => rfl
  · show e.val + 512 = 512 + e.val
    omega

/-- The first two gates of Wc as [E, 2E]: (e, k·E + f) ↦ Wc[k, f, e]. -/
abbrev peepW (Wc : FVec Ideal S3x512x512 .f32) : FVec Ideal S512x1024 .bf16 :=
  truncf .bf16 (shapeCast S512x1024 (transpose S512x2x512 [2, 0, 1] (extractStridedSlice S2x512x512 ![0, 0, 0] Wc slices_S3x512x512_S2x512x512_0_0_0)
    transposes_S2x512x512_S512x2x512_2_0_1) shapeCasts_S512x2x512_S512x1024) bitsLt_bf16_f32

theorem peepW_at (Wc : FVec Ideal S3x512x512 .f32) (e : Fin 512) (k : Fin 2) (k' : Fin 3) (hk : k'.val = k.val) (q : Fin 512) :
    peepW Wc (ix2 e (col2 k q)) = Wc (ix3 k' q e) := by
  show shapeCast S512x1024 (transpose S512x2x512 [2, 0, 1] (extractStridedSlice S2x512x512 ![0, 0, 0] Wc slices_S3x512x512_S2x512x512_0_0_0)
    transposes_S2x512x512_S512x2x512_2_0_1) shapeCasts_S512x2x512_S512x1024 (ix2 e (col2 k q)) = _
  refine (shapeCast_apply (transpose S512x2x512 [2, 0, 1] (extractStridedSlice S2x512x512 ![0, 0, 0] Wc slices_S3x512x512_S2x512x512_0_0_0)
    transposes_S2x512x512_S512x2x512_2_0_1) shapeCasts_S512x2x512_S512x1024 (ix2 e (col2 k q)) (ix3 e k q) ?_).trans ?_
  · rw [Shape.rowMajor_val_three, Shape.rowMajor_val_two]
    have := e.isLt; have := k.isLt; have := q.isLt
    show (e.val * 2 + k.val) * 512 + q.val = e.val * 1024 + (k.val * 512 + q.val)
    omega
  refine (transpose_apply [2, 0, 1] (extractStridedSlice S2x512x512 ![0, 0, 0] Wc slices_S3x512x512_S2x512x512_0_0_0) transposes_S2x512x512_S512x2x512_2_0_1 (ix3 e k q) (ix3 k q e) (fun b => match b with
      | ⟨0, _⟩ => rfl
      | ⟨1, _⟩ => rfl
      | ⟨2, _⟩ => rfl)).trans ?_
  exact extractStridedSlice_apply ![0, 0, 0] Wc slices_S3x512x512_S2x512x512_0_0_0 (ix3 k q e) (ix3 k' q e) (fun a => match a with
    | ⟨0, _⟩ => by show k'.val = 0 + k.val; omega
    | ⟨1, _⟩ => by show q.val = 0 + q.val; omega
    | ⟨2, _⟩ => by show e.val = 0 + e.val; omega)

/-- The third gate of Wc, transposed: (e, f) ↦ Wc[2, f, e]. -/
abbrev outW (Wc : FVec Ideal S3x512x512 .f32) : FVec Ideal S512x512 .bf16 :=
  truncf .bf16 (transpose S512x512 [1, 0] (shapeCast S512x512 (extractStridedSlice S1x512x512 ![2, 0, 0] Wc slices_S3x512x512_S1x512x512_2_0_0)
    shapeCasts_S1x512x512_S512x512) transposes_S512x512_S512x512_1_0) bitsLt_bf16_f32

theorem outW_at (Wc : FVec Ideal S3x512x512 .f32) (e q : Fin 512) : outW Wc (ix2 e q) = Wc (ix3 2 q e) := by
  show transpose S512x512 [1, 0] (shapeCast S512x512 (extractStridedSlice S1x512x512 ![2, 0, 0] Wc slices_S3x512x512_S1x512x512_2_0_0)
    shapeCasts_S1x512x512_S512x512) transposes_S512x512_S512x512_1_0 (ix2 e q) = _
  refine (transpose_ix2_apply (shapeCast S512x512 (extractStridedSlice S1x512x512 ![2, 0, 0] Wc slices_S3x512x512_S1x512x512_2_0_0)
    shapeCasts_S1x512x512_S512x512) transposes_S512x512_S512x512_1_0 e q).trans ?_
  refine (shapeCast_1ab_ab_apply (extractStridedSlice S1x512x512 ![2, 0, 0] Wc slices_S3x512x512_S1x512x512_2_0_0) shapeCasts_S1x512x512_S512x512 q e).trans ?_
  exact extractStridedSlice_apply ![2, 0, 0] Wc slices_S3x512x512_S1x512x512_2_0_0 (ix3 (0 : Fin 1) q e) (ix3 2 q e) (fun a => match a with
    | ⟨0, _⟩ => rfl
    | ⟨1, _⟩ => by show q.val = 0 + q.val; omega
    | ⟨2, _⟩ => by show e.val = 0 + e.val; omega)

/-- bx + bh as one row of 4E: (0, k·E + f) ↦ bx[k, f] + bh[k, f]. -/
abbrev biasRow (bx bh : FVec Ideal S4x512 .f32) : FVec Ideal S1x2048 .f32 :=
  shapeCast S1x2048 (addf bx bh) shapeCasts_S4x512_S1x2048

theorem biasRow_at (bx bh : FVec Ideal S4x512 .f32) (k : Fin 4) (q : Fin 512) :
    biasRow bx bh (ix2 0 (col4 k q)) = bx (ix2 k q) + bh (ix2 k q) := by
  refine (shapeCast_apply _ shapeCasts_S4x512_S1x2048 (ix2 0 (col4 k q)) (ix2 k q) ?_).trans rfl
  rw [Shape.rowMajor_val_two, Shape.rowMajor_val_two]
  have := k.isLt; have := q.isLt
  show k.val * 512 + q.val = 0 * 2048 + (k.val * 512 + q.val)
  omega

/-- The first two rows of bc as one row of 2E. -/
abbrev peepRow (bc : FVec Ideal S3x512 .f32) : FVec Ideal S1x1024 .f32 :=
  shapeCast S1x1024 (extractStridedSlice S2x512 ![0, 0] bc slices_S3x512_S2x512_0_0) shapeCasts_S2x512_S1x1024

theorem peepRow_at (bc : FVec Ideal S3x512 .f32) (k : Fin 2) (k' : Fin 3) (hk : k'.val = k.val) (q : Fin 512) :
    peepRow bc (ix2 0 (col2 k q)) = bc (ix2 k' q) := by
  refine (shapeCast_apply _ shapeCasts_S2x512_S1x1024 (ix2 0 (col2 k q)) (ix2 k q) ?_).trans ?_
  · rw [Shape.rowMajor_val_two, Shape.rowMajor_val_two]
    have := k.isLt; have := q.isLt
    show k.val * 512 + q.val = 0 * 1024 + (k.val * 512 + q.val)
    omega
  exact extractStridedSlice_apply ![0, 0] bc slices_S3x512_S2x512_0_0 (ix2 k q) (ix2 k' q) (fun a => match a with
    | ⟨0, _⟩ => by show k'.val = 0 + k.val; omega
    | ⟨1, _⟩ => by show q.val = 0 + q.val; omega)

/-- The third row of bc as one row of E. -/
abbrev outRow (bc : FVec Ideal S3x512 .f32) : FVec Ideal S1x512 .f32 :=
  shapeCast S1x512 (shapeCast S512 (extractStridedSlice S1x512 ![2, 0] bc slices_S3x512_S1x512_2_0) shapeCasts_S1x512_S512) shapeCasts_S512_S1x512

theorem outRow_at (bc : FVec Ideal S3x512 .f32) (q : Fin 512) : outRow bc (ix2 0 q) = bc (ix2 2 q) := by
  refine (shapeCast_apply _ shapeCasts_S512_S1x512 (ix2 0 q) (ix1 q) ?_).trans ?_
  · rw [Shape.rowMajor_val_one, Shape.rowMajor_val_two]
    show q.val = 0 * 512 + q.val
    omega
  refine (shapeCast_apply _ shapeCasts_S1x512_S512 (ix1 q) (ix2 0 q) ?_).trans ?_
  · rw [Shape.rowMajor_val_one, Shape.rowMajor_val_two]
    show 0 * 512 + q.val = q.val
    omega
  exact extractStridedSlice_apply ![2, 0] bc slices_S3x512_S1x512_2_0 (ix2 (0 : Fin 1) q) (ix2 2 q) (fun a => match a with
    | ⟨0, _⟩ => rfl
    | ⟨1, _⟩ => by show q.val = 0 + q.val; omega)

/-! ## What the tiles find in each operand's array -/

variable (m : (ℓ : Loc nD τ sig) → Buf (Elt Ideal) ℓ) (c : Dev nD)

theorem V_stacked : (V m c main_v5 : S1024x2048.Idx → EReal)
    = stacked (m ((c : Thread nD τ).loc main_arg3)) (m ((c : Thread nD τ).loc main_arg5)) := by
  dsimp only [Gen.V, Gen.hostOps0]; after_results; rfl

theorem V_peepW : (V m c main_v9 : S512x1024.Idx → EReal) = peepW (m ((c : Thread nD τ).loc main_arg7)) := by
  dsimp only [Gen.V, Gen.hostOps0]; after_results; rfl

theorem V_outW : (V m c main_v13 : S512x512.Idx → EReal) = outW (m ((c : Thread nD τ).loc main_arg7)) := by
  dsimp only [Gen.V, Gen.hostOps0]; after_results; rfl

theorem V_biasRow : (V m c main_v15 : S1x2048.Idx → EReal)
    = biasRow (m ((c : Thread nD τ).loc main_arg4)) (m ((c : Thread nD τ).loc main_arg6)) := by
  dsimp only [Gen.V, Gen.hostOps0]; after_results; rfl

theorem V_peepRow : (V m c main_v17 : S1x1024.Idx → EReal) = peepRow (m ((c : Thread nD τ).loc main_arg8)) := by
  dsimp only [Gen.V, Gen.hostOps0]; after_results; rfl

theorem V_outRow : (V m c main_v20 : S1x512.Idx → EReal) = outRow (m ((c : Thread nD τ).loc main_arg8)) := by
  dsimp only [Gen.V, Gen.hostOps0]; after_results; rfl

end Cert.Relaid

end
-- ==== Proof.Whole.lean ====
/-
  From tiles to the whole arrays. The grid has 64 points; point t works on rows 512·t … 512·t + 511 of x, h, c and of the
  two results, and on the whole of every re-laid weight and bias operand. So what point t writes back to each result is
  the block of rows 512·t … of ONE function of the argument arrays — the cell's new hidden state, and its new cell
  state — and since the 64 blocks cover all 32768 rows, each result array ends holding that function.
-/
import proofs.«123642_j20761871908970_2_alg».proof.Proof.Gen.KernelIdeal.Value
import proofs.«123642_j20761871908970_2_alg».proof.Proof.Cell
import proofs.«123642_j20761871908970_2_alg».proof.Proof.Tile
import proofs.«123642_j20761871908970_2_alg».proof.Proof.Relaid

set_option maxRecDepth 16384

noncomputable section

namespace Cert.Whole

open Cert.KernelIdeal Cert.KernelIdeal.Gen Idealize.ShloMosaic Idealize.ShloMosaic.TcCoe Idealize.SL.Sem
open Idealize.ShloMosaic.ValueIdx Cert.Cell Cert.Relaid
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-! ## Where each operand's block sits at point t: the activations and results move with t, the rest stay -/

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem at9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem at10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem at4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem at5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem at6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem at8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Row p of point t's tile is row t·512 + p of the arrays. -/
def row (t : Fin cfg0.N) (p : Fin 512) : Fin 32768 :=
  ⟨t.val * 512 + p.val, by have h : t.val < 64 := lt_of_lt_of_eq t.isLt N_0; have := p.isLt; omega⟩

/-! ## The nine operand blocks at point t -/

theorem read0 (c : Dev nD) (t : Fin cfg0.N) (p e : Fin 512) :
    iblk m c 0 t (ix2 p e) = m ((c : Thread nD τ).loc main_arg0) (ix2 (row t p) e) := by
  show V m c main_arg0 (((cfg0.win 0).blk t).view.emb (ix2 p e)) = _
  rw [V_main_arg0]
  refine congrArg _ (funext fun a => Fin.ext ?_)
  obtain ⟨e0, e1⟩ := at0 t
  have hp : p.val < 512 := p.isLt
  have he : e.val < 512 := e.isLt
  match a with
  | ⟨0, _⟩ => show win0_0.index t (0 : Fin 2) * 512 + 1 * p.val = t.val * 512 + p.val; omega
  | ⟨1, _⟩ => show win0_0.index t (1 : Fin 2) * 512 + 1 * e.val = e.val; omega

theorem read1 (c : Dev nD) (t : Fin cfg0.N) (p e : Fin 512) :
    iblk m c 1 t (ix2 p e) = m ((c : Thread nD τ).loc main_arg1) (ix2 (row t p) e) := by
  show V m c main_arg1 (((cfg0.win 1).blk t).view.emb (ix2 p e)) = _
  rw [V_main_arg1]
  refine congrArg _ (funext fun a => Fin.ext ?_)
  obtain ⟨e0, e1⟩ := at1 t
  have hp : p.val < 512 := p.isLt
  have he : e.val < 512 := e.isLt
  match a with
  | ⟨0, _⟩ => show win0_1.index t (0 : Fin 2) * 512 + 1 * p.val = t.val * 512 + p.val; omega
  | ⟨1, _⟩ => show win0_1.index t (1 : Fin 2) * 512 + 1 * e.val = e.val; omega

theorem read2 (c : Dev nD) (t : Fin cfg0.N) (p e : Fin 512) :
    iblk m c 2 t (ix2 p e) = m ((c : Thread nD τ).loc main_arg2) (ix2 (row t p) e) := by
  show V m c main_arg2 (((cfg0.win 2).blk t).view.emb (ix2 p e)) = _
  rw [V_main_arg2]
  refine congrArg _ (funext fun a => Fin.ext ?_)
  obtain ⟨e0, e1⟩ := at2 t
  have hp : p.val < 512 := p.isLt
  have he : e.val < 512 := e.isLt
  match a with
  | ⟨0, _⟩ => show win0_2.index t (0 : Fin 2) * 512 + 1 * p.val = t.val * 512 + p.val; omega
  | ⟨1, _⟩ => show win0_2.index t (1 : Fin 2) * 512 + 1 * e.val = e.val; omega

theorem read3 (c : Dev nD) (t : Fin cfg0.N) (r : Fin 1024) (n : Fin 2048) :
    iblk m c 3 t (ix2 r n) = stacked (m ((c : Thread nD τ).loc main_arg3)) (m ((c : Thread nD τ).loc main_arg5)) (ix2 r n) := by
  show V m c main_v5 (((cfg0.win 3).blk t).view.emb (ix2 r n)) = _
  rw [V_stacked]
  refine congrArg _ (funext fun a => Fin.ext ?_)
  obtain ⟨e0, e1⟩ := at3 t
  match a with
  | ⟨0, _⟩ => show win0_3.index t (0 : Fin 2) * 1024 + 1 * r.val = r.val; omega
  | ⟨1, _⟩ => show win0_3.index t (1 : Fin 2) * 2048 + 1 * n.val = n.val; omega

theorem read4 (c : Dev nD) (t : Fin cfg0.N) (r : Fin 512) (n : Fin 1024) :
    iblk m c 4 t (ix2 r n) = peepW (m ((c : Thread nD τ).loc main_arg7)) (ix2 r n) := by
  show V m c main_v9 (((cfg0.win 4).blk t).view.emb (ix2 r n)) = _
  rw [V_peepW]
  refine congrArg _ (funext fun a => Fin.ext ?_)
  obtain ⟨e0, e1⟩ := at4 t
  match a with
  | ⟨0, _⟩ => show win0_4.index t (0 : Fin 2) * 512 + 1 * r.val = r.val; omega
  | ⟨1, _⟩ => show win0_4.index t (1 : Fin 2) * 1024 + 1 * n.val = n.val; omega

theorem read5 (c : Dev nD) (t : Fin cfg0.N) (r : Fin 512) (n : Fin 512) :
    iblk m c 5 t (ix2 r n) = outW (m ((c : Thread nD τ).loc main_arg7)) (ix2 r n) := by
  show V m c main_v13 (((cfg0.win 5).blk t).view.emb (ix2 r n)) = _
  rw [V_outW]
  refine congrArg _ (funext fun a => Fin.ext ?_)
  obtain ⟨e0, e1⟩ := at5 t
  match a with
  | ⟨0, _⟩ => show win0_5.index t (0 : Fin 2) * 512 + 1 * r.val = r.val; omega
  | ⟨1, _⟩ => show win0_5.index t (1 : Fin 2) * 512 + 1 * n.val = n.val; omega

theorem read6 (c : Dev nD) (t : Fin cfg0.N) (r : Fin 1) (n : Fin 2048) :
    iblk m c 6 t (ix2 r n) = biasRow (m ((c : Thread nD τ).loc main_arg4)) (m ((c : Thread nD τ).loc main_arg6)) (ix2 r n) := by
  show V m c main_v15 (((cfg0.win 6).blk t).view.emb (ix2 r n)) = _
  rw [V_biasRow]
  refine congrArg _ (funext fun a => Fin.ext ?_)
  obtain ⟨e0, e1⟩ := at6 t
  match a with
  | ⟨0, _⟩ => show win0_6.index t (0 : Fin 2) * 1 + 1 * r.val = r.val; omega
  | ⟨1, _⟩ => show win0_6.index t (1 : Fin 2) * 2048 + 1 * n.val = n.val; omega

theorem read7 (c : Dev nD) (t : Fin cfg0.N) (r : Fin 1) (n : Fin 1024) :
    iblk m c 7 t (ix2 r n) = peepRow (m ((c : Thread nD τ).loc main_arg8)) (ix2 r n) := by
  show V m c main_v17 (((cfg0.win 7).blk t).view.emb (ix2 r n)) = _
  rw [V_peepRow]
  refine congrArg _ (funext fun a => Fin.ext ?_)
  obtain ⟨e0, e1⟩ := at7 t
  match a with
  | ⟨0, _⟩ => show win0_7.index t (0 : Fin 2) * 1 + 1 * r.val = r.val; omega
  | ⟨1, _⟩ => show win0_7.index t (1 : Fin 2) * 1024 + 1 * n.val = n.val; omega

theorem read8 (c : Dev nD) (t : Fin cfg0.N) (r : Fin 1) (n : Fin 512) :
    iblk m c 8 t (ix2 r n) = outRow (m ((c : Thread nD τ).loc main_arg8)) (ix2 r n) := by
  show V m c main_v20 (((cfg0.win 8).blk t).view.emb (ix2 r n)) = _
  rw [V_outRow]
  refine congrArg _ (funext fun a => Fin.ext ?_)
  obtain ⟨e0, e1⟩ := at8 t
  match a with
  | ⟨0, _⟩ => show win0_8.index t (0 : Fin 2) * 1 + 1 * r.val = r.val; omega
  | ⟨1, _⟩ => show win0_8.index t (1 : Fin 2) * 512 + 1 * n.val = n.val; omega

/-- Point t's operands hold what the cell's tiled arrangement asks of them, for tile row p as array row t·512 + p. -/
theorem holds (c : Dev nD) (t : Fin cfg0.N) (p : Fin 512) :
    Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (iblk m c 0 t) (iblk m c 1 t) (iblk m c 2 t) (iblk m c 3 t) (iblk m c 4 t) (iblk m c 5 t) (iblk m c 6 t) (iblk m c 7 t) (iblk m c 8 t) (row t p) p where
  h0 := fun e => read0 m c t p e
  h1 := fun e => read1 m c t p e
  h2 := fun e => read2 m c t p e
  h3t := fun k q e => (read3 m c t (top e) (col4 k q)).trans (stacked_top _ _ e k q)
  h3b := fun k q e => (read3 m c t (bot e) (col4 k q)).trans (stacked_bot _ _ e k q)
  h40 := fun q e => (read4 m c t e (col2 0 q)).trans (peepW_at _ e 0 0 rfl q)
  h41 := fun q e => (read4 m c t e (col2 1 q)).trans (peepW_at _ e 1 1 rfl q)
  h5 := fun q e => (read5 m c t e q).trans (outW_at _ e q)
  h6 := fun k q => (read6 m c t 0 (col4 k q)).trans (biasRow_at _ _ k q)
  h70 := fun q => (read7 m c t 0 (col2 0 q)).trans (peepRow_at _ 0 0 rfl q)
  h71 := fun q => (read7 m c t 0 (col2 1 q)).trans (peepRow_at _ 1 1 rfl q)
  h8 := fun q => (read8 m c t 0 q).trans (outRow_at _ q)

/-! ## The first result: the new hidden state -/

/-- An index of the array is in point t's block iff each coordinate is in the block's range on its axis. -/
theorem mem_blk9 (t : Fin cfg0.N) (i : S32768x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v21_0).slice (win0_9.rect t)).set ↔ _
  rw [View.set_slice_whole, Rect.mem_set_unit]
  exact Iff.rfl

/-- Row r of the array lies in the block of point r / 512. -/
theorem cover9 (i : S32768x512.Idx) : ∃ t : Fin cfg0.N, (cfg0.win 9).flush t = true ∧ i ∈ ((cfg0.win 9).blk t).view.set := by
  have hN : cfg0.N = 64 := N_0
  have hi0 : (i 0).val < 32768 := (i 0).isLt
  have hi1 : (i 1).val < 512 := (i 1).isLt
  have hlt : (i 0).val / 512 < cfg0.N := by rw [hN]; omega
  obtain ⟨e0, e1⟩ := at9 ⟨(i 0).val / 512, hlt⟩
  have e0' : win0_9.index ⟨(i 0).val / 512, hlt⟩ (0 : Fin 2) = (i 0).val / 512 := e0
  refine ⟨⟨(i 0).val / 512, hlt⟩, flush0_9 _, ?_⟩
  rw [mem_blk9]
  intro a
  match a with
  | ⟨0, _⟩ => show win0_9.index ⟨(i 0).val / 512, hlt⟩ (0 : Fin 2) * 512 ≤ (i 0).val ∧ (i 0).val < win0_9.index ⟨(i 0).val / 512, hlt⟩ (0 : Fin 2) * 512 + 512; omega
  | ⟨1, _⟩ => show win0_9.index ⟨(i 0).val / 512, hlt⟩ (1 : Fin 2) * 512 ≤ (i 1).val ∧ (i 1).val < win0_9.index ⟨(i 0).val / 512, hlt⟩ (1 : Fin 2) * 512 + 512; omega

/-- Position (p, q) of point t's block is entry (t·512 + p, q) of the array. -/
theorem emb9 (t : Fin cfg0.N) (p q : Fin 512) : ((cfg0.win 9).blk t).view.emb (ix2 p q) = ix2 (row t p) q := by
  refine funext fun a => Fin.ext ?_
  obtain ⟨e0, e1⟩ := at9 t
  have hp : p.val < 512 := p.isLt
  have hq : q.val < 512 := q.isLt
  match a with
  | ⟨0, _⟩ => show win0_9.index t (0 : Fin 2) * 512 + 1 * p.val = t.val * 512 + p.val; omega
  | ⟨1, _⟩ => show win0_9.index t (1 : Fin 2) * 512 + 1 * q.val = q.val; omega

/-- What point t writes back to the first result is block t of the new hidden state. -/
theorem flushedH (c : Dev nD) (t : Fin cfg0.N) :
    (dats m 0 c).flushed 9 t = ((cfg0.win 9).blk t).view.read (Elt Ideal) (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9]
  funext y
  obtain ⟨p, q, rfl⟩ : ∃ (p : Fin 512) (q : Fin 512), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p q)
    = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  rw [emb9]
  unfold out0_9
  rw [Cert.KernelIdeal.Value.canon9_eq]
  simp only [View.ld_unit_zero (S := S512x512) zeros, View.ld_unit_zero (S := S1024x2048) zeros, View.ld_unit_zero (S := S512x1024) zeros,
    View.ld_unit_zero (S := S1x2048) zeros, View.ld_unit_zero (S := S1x1024) zeros, View.ld_unit_zero (S := S1x512) zeros]
  exact (Cert.Tile.hidden_at (iblk m c 0 t) (iblk m c 1 t) (iblk m c 2 t) (iblk m c 3 t) (iblk m c 4 t) (iblk m c 5 t) (iblk m c 6 t) (iblk m c 7 t) (iblk m c 8 t) p q).trans (cellH_eq (holds m c t p) q)

theorem finalH (c : Dev nD) : (dats m 0 c).arrAt 9 cfg0.N = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushedH m c t) cover9

/-! ## The second result: the new cell state -/

/-- An index of the array is in point t's block iff each coordinate is in the block's range on its axis. -/
theorem mem_blk10 (t : Fin cfg0.N) (i : S32768x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v21_1).slice (win0_10.rect t)).set ↔ _
  rw [View.set_slice_whole, Rect.mem_set_unit]
  exact Iff.rfl

/-- Row r of the array lies in the block of point r / 512. -/
theorem cover10 (i : S32768x512.Idx) : ∃ t : Fin cfg0.N, (cfg0.win 10).flush t = true ∧ i ∈ ((cfg0.win 10).blk t).view.set := by
  have hN : cfg0.N = 64 := N_0
  have hi0 : (i 0).val < 32768 := (i 0).isLt
  have hi1 : (i 1).val < 512 := (i 1).isLt
  have hlt : (i 0).val / 512 < cfg0.N := by rw [hN]; omega
  obtain ⟨e0, e1⟩ := at10 ⟨(i 0).val / 512, hlt⟩
  have e0' : win0_10.index ⟨(i 0).val / 512, hlt⟩ (0 : Fin 2) = (i 0).val / 512 := e0
  refine ⟨⟨(i 0).val / 512, hlt⟩, flush0_10 _, ?_⟩
  rw [mem_blk10]
  intro a
  match a with
  | ⟨0, _⟩ => show win0_10.index ⟨(i 0).val / 512, hlt⟩ (0 : Fin 2) * 512 ≤ (i 0).val ∧ (i 0).val < win0_10.index ⟨(i 0).val / 512, hlt⟩ (0 : Fin 2) * 512 + 512; omega
  | ⟨1, _⟩ => show win0_10.index ⟨(i 0).val / 512, hlt⟩ (1 : Fin 2) * 512 ≤ (i 1).val ∧ (i 1).val < win0_10.index ⟨(i 0).val / 512, hlt⟩ (1 : Fin 2) * 512 + 512; omega

/-- Position (p, q) of point t's block is entry (t·512 + p, q) of the array. -/
theorem emb10 (t : Fin cfg0.N) (p q : Fin 512) : ((cfg0.win 10).blk t).view.emb (ix2 p q) = ix2 (row t p) q := by
  refine funext fun a => Fin.ext ?_
  obtain ⟨e0, e1⟩ := at10 t
  have hp : p.val < 512 := p.isLt
  have hq : q.val < 512 := q.isLt
  match a with
  | ⟨0, _⟩ => show win0_10.index t (0 : Fin 2) * 512 + 1 * p.val = t.val * 512 + p.val; omega
  | ⟨1, _⟩ => show win0_10.index t (1 : Fin 2) * 512 + 1 * q.val = q.val; omega

/-- What point t writes back to the second result is block t of the new cell state. -/
theorem flushedC (c : Dev nD) (t : Fin cfg0.N) :
    (dats m 0 c).flushed 10 t = ((cfg0.win 10).blk t).view.read (Elt Ideal) (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed10]
  funext y
  obtain ⟨p, q, rfl⟩ : ∃ (p : Fin 512) (q : Fin 512), y = ix2 p q := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (ix2 p q)
    = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb (ix2 p q))
  rw [emb10]
  unfold out0_10
  rw [View.canon_unit_zero zeros]
  simp only [View.ld_unit_zero (S := S512x512) zeros, View.ld_unit_zero (S := S1024x2048) zeros, View.ld_unit_zero (S := S512x1024) zeros,
    View.ld_unit_zero (S := S1x2048) zeros, View.ld_unit_zero (S := S1x1024) zeros]
  exact (Cert.Tile.pay3_at (iblk m c 0 t) (iblk m c 1 t) (iblk m c 2 t) (iblk m c 3 t) (iblk m c 4 t) (iblk m c 6 t) (iblk m c 7 t) p q).trans (cellC_eq (holds m c t p) q)

theorem finalC (c : Dev nD) : (dats m 0 c).arrAt 10 cfg0.N = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushedC m c t) cover10

/-! ## The run -/

/-- Every weakly fair execution of the tiled program ends with the two results at the cell's two outputs and the
    arguments unchanged. -/
theorem run : θ_run defs (onTc (τ := τ) (main (F := Ideal))) ⟨m, fun _ => 0, ρ⟩ fun r => ∀ c : Dev nD,
      r.2.mem ((c : Thread nD τ).loc main_v21_0) = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v21_1) = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (finalH m c), (h c).2.1.trans (finalC m c), (h c).2.2⟩)
    (Cert.KernelIdeal.Value.run_blocks m ρ)

end Cert.Whole

end
-- ==== Proof.lean ====
/-
  The certificate for one LSTM cell with peepholes, tiled over 512-row blocks, against its plain reference.

  Both programs compute, for every row b and feature f, the new cell state
      c' = σ(forget) · c + σ(input) · tanh(memory)
  and the new hidden state  h' = σ(output) · c',  the gates being affine in x, h and (through the peepholes) c or c'.
  They differ only in arrangement: the tiled program forms the x- and h-projections of all four gates as one product
  over a contraction axis of length 2E with bx + bh added once, reads its gates off as column blocks of that product, and
  writes the logistic function as one operation; the reference forms each projection by itself, adds each bias by itself,
  and spells the logistic function 1 / (1 + exp(-z)). On the extended reals these agree by commutativity and
  associativity of + and · and by the definition of the logistic function: no finiteness of the inputs is used.

  Proof/Cell.lean states the cell and the agreement of the two arrangements; Proof/RefCell.lean reads the reference's two
  results as the cell's; Proof/Tile.lean reads a tile's arithmetic, Proof/Relaid.lean the re-laid weights and biases,
  Proof/Whole.lean puts the 64 tiles together. Here the five claims are assembled. The tiled program's idealization
  rewrote nothing, so that claim is trivial; the three frames are the generated ones (the reference's being its
  generated run with the results dropped).
-/
import proofs.«123642_j20761871908970_2_alg».proof.Defs
import proofs.«123642_j20761871908970_2_alg».proof.Proof.Gen.Kernel
import proofs.«123642_j20761871908970_2_alg».proof.Proof.Gen.Kernel.Skeleton
import proofs.«123642_j20761871908970_2_alg».proof.Proof.Gen.Kernel.Launch
import proofs.«123642_j20761871908970_2_alg».proof.Proof.Gen.Kernel.Points
import proofs.«123642_j20761871908970_2_alg».proof.Proof.Gen.Kernel.Frame
import proofs.«123642_j20761871908970_2_alg».proof.Proof.Gen.KernelIdeal
import proofs.«123642_j20761871908970_2_alg».proof.Proof.Gen.KernelIdeal.Skeleton
import proofs.«123642_j20761871908970_2_alg».proof.Proof.Gen.KernelIdeal.Launch
import proofs.«123642_j20761871908970_2_alg».proof.Proof.Gen.KernelIdeal.Points
import proofs.«123642_j20761871908970_2_alg».proof.Proof.Gen.KernelIdeal.Frame
import proofs.«123642_j20761871908970_2_alg».proof.Proof.Gen.ReferenceIdeal
import proofs.«123642_j20761871908970_2_alg».proof.Proof.Gen.Pre_finite_inputs
import proofs.«123642_j20761871908970_2_alg».proof.Proof.Gen.KernelIdeal.Value
import proofs.«123642_j20761871908970_2_alg».proof.Proof.Gen.ReferenceIdeal.Run
import proofs.«123642_j20761871908970_2_alg».proof.Proof.Gen.ReferenceIdeal.Read
import proofs.«123642_j20761871908970_2_alg».proof.Proof.Cell
import proofs.«123642_j20761871908970_2_alg».proof.Proof.RefCell
import proofs.«123642_j20761871908970_2_alg».proof.Proof.Whole
import Idealize.ShloMosaic.Adequacy
import Idealize.ShloMosaic.Init

noncomputable section

namespace Cert.Proof

open Idealize.ShloMosaic Idealize.SL.Sem Cert.Kernel

theorem frame_tiled : Cert.frame_Kernel := fun m ρ _ => Cert.Kernel.Gen.frame m ρ

theorem frame_tiledIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the nine arguments, both programs end with the new hidden state and the new cell
    state of those arguments. -/
theorem algebraic : Cert.algebraic_KernelIdeal_ReferenceIdeal := by
  intro m ρ m' ρ' _ hagree
  refine ⟨fun c => Cert.Cell.arrH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Cell.arrC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v75_eq, a0, a1, a2, a3, a4, a5, a6, a7, a8]
    exact funext fun j => Cert.RefCell.ref_nextH _ _ _ _ _ _ _ _ _ j
  · obtain ⟨a0, a1, a2, a3, a4, a5, a6, a7, a8⟩ := hagree c
    rw [Cert.ReferenceIdeal.Read.val_main_v53_eq, a0, a1, a2, a3, a4, a5, a6, a7, a8]
    exact funext fun j => Cert.RefCell.ref_nextC _ _ _ _ _ _ _ _ _ j

theorem claim : Cert.Claim := ⟨Cert.Kernel.Gen.facts, Cert.KernelIdeal.Gen.facts, Cert.ReferenceIdeal.Gen.facts, Cert.Pre_finite_inputs.Gen.facts,
  frame_tiled, frame_tiledIdeal, frame_reference, preserves, algebraic⟩

end Cert.Proof

end
